-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x64 : Shape := ⟨4, ![4, 16, 1024, 64]⟩
abbrev S4x1x1024x1024 : Shape := ⟨4, ![4, 1, 1024, 1024]⟩
abbrev S_ : Shape := ⟨0, ![]⟩

class Facts : Prop where
  bcast_S_S4x16x1024x64 : S_.BroadcastsInDim S4x16x1024x64 (![] : Fin 0 → Fin S4x16x1024x64.rank)
  reducesTo_S4x16x1024x64_S_d0_1_2_3 : S4x16x1024x64.ReducesTo [0, 1, 2, 3] S_
  h_S_ : 0 < S_.numel

variable [Facts]

def fn {F : FTy → Type} [FloatOps F] (main_arg0 : FVec F S4x16x1024x64 .f32) (main_arg1 : FVec F S4x16x1024x64 .f32) (main_arg2 : FVec F S4x16x1024x64 .f32) (main_arg3 : IVec S4x1x1024x1024 32) : IVec S_ 1 :=
  let main_v0 : FVec F S4x16x1024x64 .f32 := Host.absf main_arg0
  let main_cst : FVec F S_ .f32 := constant S_ .f32 0x7F800000#32
  let main_v1 : FVec F S4x16x1024x64 .f32 := broadcastInDim S4x16x1024x64 ![] bcast_S_S4x16x1024x64 main_cst
  let main_v2 : IVec S4x16x1024x64 1 := cmpf .olt main_v0 main_v1
  let main_c : IVec S_ 1 := constantI S_ 1 1#1
  let main_v3 : IVec S_ 1 := (fun x v => Host.reduce IntOp.andi x v reducesTo_S4x16x1024x64_S_d0_1_2_3 h_S_) main_v2 main_c
  let main_v4 : FVec F S4x16x1024x64 .f32 := Host.absf main_arg1
  let main_cst_0 : FVec F S_ .f32 := constant S_ .f32 0x7F800000#32
  let main_v5 : FVec F S4x16x1024x64 .f32 := broadcastInDim S4x16x1024x64 ![] bcast_S_S4x16x1024x64 main_cst_0
  let main_v6 : IVec S4x16x1024x64 1 := cmpf .olt main_v4 main_v5
  let main_c_1 : IVec S_ 1 := constantI S_ 1 1#1
  let main_v7 : IVec S_ 1 := (fun x v => Host.reduce IntOp.andi x v reducesTo_S4x16x1024x64_S_d0_1_2_3 h_S_) main_v6 main_c_1
  let main_v8 : IVec S_ 1 := andi main_v3 main_v7
  let main_v9 : FVec F S4x16x1024x64 .f32 := Host.absf main_arg2
  let main_cst_2 : FVec F S_ .f32 := constant S_ .f32 0x7F800000#32
  let main_v10 : FVec F S4x16x1024x64 .f32 := broadcastInDim S4x16x1024x64 ![] bcast_S_S4x16x1024x64 main_cst_2
  let main_v11 : IVec S4x16x1024x64 1 := cmpf .olt main_v9 main_v10
  let main_c_3 : IVec S_ 1 := constantI S_ 1 1#1
  let main_v12 : IVec S_ 1 := (fun x v => Host.reduce IntOp.andi x v reducesTo_S4x16x1024x64_S_d0_1_2_3 h_S_) main_v11 main_c_3
  let main_v13 : IVec S_ 1 := andi main_v8 main_v12
  main_v13
-- ==== Kernel.lean ====
abbrev S4x16x1024x64 : Shape := ⟨4, ![4, 16, 1024, 64]⟩
abbrev S4x1x1024x1024 : Shape := ⟨4, ![4, 1, 1024, 1024]⟩
abbrev S4x16x1024x1024 : Shape := ⟨4, ![4, 16, 1024, 1024]⟩
abbrev S1x1x256x64 : Shape := ⟨4, ![1, 1, 256, 64]⟩
abbrev S1x16x1024x64 : Shape := ⟨4, ![1, 16, 1024, 64]⟩
abbrev S1x1x256x1024 : Shape := ⟨4, ![1, 1, 256, 1024]⟩
abbrev S256x64 : Shape := ⟨2, ![256, 64]⟩
abbrev S1x1x1024x64 : Shape := ⟨4, ![1, 1, 1024, 64]⟩
abbrev S1024x64 : Shape := ⟨2, ![1024, 64]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x1x1024x1024, .i32⟩
  | .hbm, ⟨4, _⟩ => ⟨S4x16x1024x64, .f32⟩
  | .hbm, ⟨5, _⟩ => ⟨S4x16x1024x1024, .f32⟩
  | .local _ .vmem, ⟨0, _⟩ => ⟨S1x1x256x64, .f32⟩
  | .local _ .vmem, ⟨1, _⟩ => ⟨S1x1x256x64, .f32⟩
  | .local _ .vmem, ⟨2, _⟩ => ⟨S1x16x1024x64, .f32⟩
  | .local _ .vmem, ⟨3, _⟩ => ⟨S1x16x1024x64, .f32⟩
  | .local _ .vmem, ⟨4, _⟩ => ⟨S1x1x256x1024, .i32⟩
  | .local _ .vmem, ⟨5, _⟩ => ⟨S1x1x256x1024, .i32⟩
  | .local _ .vmem, ⟨6, _⟩ => ⟨S1x1x256x64, .f32⟩
  | .local _ .vmem, ⟨7, _⟩ => ⟨S1x1x256x64, .f32⟩
  | .local _ .vmem, ⟨8, _⟩ => ⟨S1x1x256x1024, .f32⟩
  | .local _ .vmem, ⟨9, _⟩ => ⟨S1x1x256x1024, .f32⟩
  | _, _ => ⟨S4x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 16], ![false, false, false]⟩

def k0_off1 (i : grid0.Coords) : Fin 4 → Nat :=
  let c0_3 : Index := 0#32
  let arg2 : BitVec 32 := BitVec.ofNat 32 (i 2).val
  let v5 : Index := Scalar.indexCast arg2
  let c0_4 : Index := 0#32
  let c0_5 : Index := 0#32
  ![0, v5.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16x1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x16x1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1x1x256x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  bitsLt_bf16_f32 : FTy.bits .bf16 < FTy.bits .f32
  h_S1x1x1024x64 : 0 < S1x1x1024x64.numel
  shapeCasts_S1x1x1024x64_S1024x64 : S1x1x1024x64.ShapeCasts S1024x64
  inb_S1x1x256x1024_S1x1x256x1024_0_0_0_0 : ∀ a, (![0, 0, 0, 0] : Fin 4 → Nat) a + S1x1x256x1024.size a ≤ S1x1x256x1024.size a
  h_S1x1x256x1024 : 0 < S1x1x256x1024.numel
  shapeCasts_S1x1x256x1024_S256x1024 : S1x1x256x1024.ShapeCasts S256x1024
  reduces_S256x1024_S256 : S256x1024.Reduces [1] S256
  shapeCasts_S256_S256x1 : S256.ShapeCasts S256x1
  broadcasts_S256x1_S256x1024 : S256x1.Broadcasts S256x1024
  shapeCasts_S256x1024_S1x1x256x1024 : S256x1024.ShapeCasts S1x1x256x1024
  shapeCasts_S256x64_S1x1x256x64 : S256x64.ShapeCasts S1x1x256x64
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  hrank0 : 0 < grid0.rank
  k0_off1_inb : ∀ i : grid0.Coords, ∀ a, (k0_off1 i) a + S1x1x1024x64.size a ≤ S1x16x1024x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S4x16x1024x64.size a
  hwx0_0 : ∀ i : grid0.Coords, EltTy.bits .f32 = 32 ∨ (Rect.block (s := S4x16x1024x64) S1x1x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16x1024x64.size a ≤ S4x16x1024x64.size a
  hwx0_1 : ∀ i : grid0.Coords, EltTy.bits .f32 = 32 ∨ (Rect.block (s := S4x16x1024x64) S1x16x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16x1024x64.size a ≤ S4x16x1024x64.size a
  hwx0_2 : ∀ i : grid0.Coords, EltTy.bits .f32 = 32 ∨ (Rect.block (s := S4x16x1024x64) S1x16x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x1024.size a ≤ S4x1x1024x1024.size a
  hwx0_3 : ∀ i : grid0.Coords, EltTy.bits .i32 = 32 ∨ (Rect.block (s := S4x1x1024x1024) S1x1x256x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x64.size a ≤ S4x16x1024x64.size a
  hwx0_4 : ∀ i : grid0.Coords, EltTy.bits .f32 = 32 ∨ (Rect.block (s := S4x16x1024x64) S1x1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x1024.size a ≤ S4x16x1024x1024.size a
  hwx0_5 : ∀ i : grid0.Coords, EltTy.bits .f32 = 32 ∨ (Rect.block (s := S4x16x1024x1024) S1x1x256x1024.size (cc0_transform_5 i) (hinb0_5 i)).WholeWords (EltTy.packing .f32)

variable [Facts₀]

def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x1024x64 : Shape := ⟨4, ![4, 16, 1024, 64]⟩
abbrev S4x1x1024x1024 : Shape := ⟨4, ![4, 1, 1024, 1024]⟩
abbrev S4x16x1024x1024 : Shape := ⟨4, ![4, 16, 1024, 1024]⟩
abbrev S_ : Shape := ⟨0, ![]⟩
abbrev S4x16x1024 : Shape := ⟨3, ![4, 16, 1024]⟩
abbrev S4x16x1024x1 : Shape := ⟨4, ![4, 16, 1024, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x16x1024x64, .f32⟩
  | .hbm, ⟨1, _⟩ => ⟨S4x16x1024x64, .f32⟩
  | .hbm, ⟨2, _⟩ => ⟨S4x16x1024x64, .f32⟩
  | .hbm, ⟨3, _⟩ => ⟨S4x1x1024x1024, .i32⟩
  | .hbm, ⟨4, _⟩ => ⟨S4x16x1024x1024, .f32⟩
  | .hbm, ⟨5, _⟩ => ⟨S_, .f32⟩
  | .hbm, ⟨6, _⟩ => ⟨S_, .f32⟩
  | .hbm, ⟨7, _⟩ => ⟨S4x16x1024x1024, .f32⟩
  | .hbm, ⟨8, _⟩ => ⟨S4x16x1024x1024, .f32⟩
  | .hbm, ⟨9, _⟩ => ⟨S_, .i32⟩
  | .hbm, ⟨10, _⟩ => ⟨S4x1x1024x1024, .i32⟩
  | .hbm, ⟨11, _⟩ => ⟨S4x1x1024x1024, .i1⟩
  | .hbm, ⟨12, _⟩ => ⟨S_, .f32⟩
  | .hbm, ⟨13, _⟩ => ⟨S_, .f32⟩
  | .hbm, ⟨14, _⟩ => ⟨S4x16x1024x1024, .i1⟩
  | .hbm, ⟨15, _⟩ => ⟨S4x16x1024x1024, .f32⟩
  | .hbm, ⟨16, _⟩ => ⟨S4x16x1024x1024, .f32⟩
  | .hbm, ⟨17, _⟩ => ⟨S_, .f32⟩
  | .hbm, ⟨18, _⟩ => ⟨S4x16x1024, .f32⟩
  | .hbm, ⟨19, _⟩ => ⟨S_, .f32⟩
  | .hbm, ⟨20, _⟩ => ⟨S4x16x1024, .f32⟩
  | .hbm, ⟨21, _⟩ => ⟨S4x16x1024, .f32⟩
  | .hbm, ⟨22, _⟩ => ⟨S4x16x1024x1, .f32⟩
  | .hbm, ⟨23, _⟩ => ⟨S4x16x1024x1024, .f32⟩
  | .hbm, ⟨24, _⟩ => ⟨S4x16x1024x1024, .f32⟩
  | .hbm, ⟨25, _⟩ => ⟨S4x16x1024x1024, .f32⟩
  | .hbm, ⟨26, _⟩ => ⟨S_, .f32⟩
  | .hbm, ⟨27, _⟩ => ⟨S4x16x1024, .f32⟩
  | .hbm, ⟨28, _⟩ => ⟨S4x16x1024x1, .f32⟩
  | .hbm, ⟨29, _⟩ => ⟨S4x16x1024x1024, .f32⟩
  | .hbm, ⟨30, _⟩ => ⟨S4x16x1024x1024, .f32⟩
  | .hbm, ⟨31, _⟩ => ⟨S4x16x1024x64, .f32⟩
  | _, _ => ⟨S4x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S_S4x16x1024x1024 : S_.BroadcastsInDim S4x16x1024x1024 (![] : Fin 0 → Fin S4x16x1024x1024.rank)
  bcast_S_S4x1x1024x1024 : S_.BroadcastsInDim S4x1x1024x1024 (![] : Fin 0 → Fin S4x1x1024x1024.rank)
  bcast_S4x1x1024x1024_S4x16x1024x1024_0_1_2_3 : S4x1x1024x1024.BroadcastsInDim S4x16x1024x1024 (![0, 1, 2, 3] : Fin 4 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]

variable [Facts₀]

def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf

class Facts : Prop extends Facts₀ where

variable [Facts]
-- ==== Proof.KernelPieces.lean ====
/-
  What one grid point leaves in its two output blocks, as pure terms of the blocks it was given.

  The body loads the query block whole, loads from each of the per-batch key and value blocks the rows of
  ONE head (the head is the point's third coordinate), loads the mask block whole, and stores once into each
  output block, covering it.  So the attention block the point leaves is the body's softmax term of the query
  block, the head's key rows and the mask block, and the output block is the body's product of that softmax
  with the head's value rows.
-/
import proofs.«117605_j17154099380895_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.AttnPieces

open Cert.KernelIdeal Cert.KernelIdeal.Gen

variable {F : FTy → Type} [FloatOps F]

theorem zero4 : (![0, 0, 0, 0] : Fin 4 → Nat) = fun _ => 0 := funext fun a => by fin_cases a <;> rfl

/-- The rows of the point's head, read out of a per-batch block of all sixteen heads. -/
abbrev headRows (i : grid0.Coords) (x : Vec F S1x16x1024x64 .f32) : Vec F S1x1x1024x64 .f32 :=
  View.ld x (Rect.unit (s := S1x16x1024x64) (k0_off1 i) S1x1x1024x64.size (Gen.k0_off1_inb i))

/-- The attention block a point leaves: the body's softmax term of the query block, the head's key rows and
    the mask block (its one store covers the block; its loads read the blocks as given). -/
theorem attn_block (c : Dev nD) (i : grid0.Coords) (arg3 : Memref sig .tc .vmem S1x1x256x64 .f32) (harg3 : arg3.IsWhole) (arg4 : Memref sig .tc .vmem S1x16x1024x64 .f32) (harg4 : arg4.IsWhole) (arg5 : Memref sig .tc .vmem S1x16x1024x64 .f32) (harg5 : arg5.IsWhole) (arg6 : Memref sig .tc .vmem S1x1x256x1024 .i32) (harg6 : arg6.IsWhole) (arg7 : Memref sig .tc .vmem S1x1x256x64 .f32) (harg7 : arg7.IsWhole) (arg8 : Memref sig .tc .vmem S1x1x256x1024 .f32) (harg8 : arg8.IsWhole)
    (x0 : Vec F S1x1x256x64 .f32) (x1 : Vec F S1x16x1024x64 .f32) (x2 : Vec F S1x16x1024x64 .f32) (x3 : Vec F S1x1x256x1024 .i32) :
    out0_A_5 c i arg3 harg3 arg4 harg4 arg5 harg5 arg6 harg6 arg7 harg7 arg8 harg8 x0 x1 x2 x3 = k0_pay4 x0 (headRows i x1) x3 := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  rw [View.canon_unit_zero zero4]
  simp only [View.readAt_eq_ld, harg3.read_unread, harg4.read_unread, harg6.read_unread,
    View.ld_unit_zero (S := S1x1x256x64) zero4, View.ld_unit_zero (S := S1x1x256x1024) zero4]

/-- The output block a point leaves: the body's product of that softmax with the head's value rows. -/
theorem out_block (c : Dev nD) (i : grid0.Coords) (arg3 : Memref sig .tc .vmem S1x1x256x64 .f32) (harg3 : arg3.IsWhole) (arg4 : Memref sig .tc .vmem S1x16x1024x64 .f32) (harg4 : arg4.IsWhole) (arg5 : Memref sig .tc .vmem S1x16x1024x64 .f32) (harg5 : arg5.IsWhole) (arg6 : Memref sig .tc .vmem S1x1x256x1024 .i32) (harg6 : arg6.IsWhole) (arg7 : Memref sig .tc .vmem S1x1x256x64 .f32) (harg7 : arg7.IsWhole) (arg8 : Memref sig .tc .vmem S1x1x256x1024 .f32) (harg8 : arg8.IsWhole)
    (x0 : Vec F S1x1x256x64 .f32) (x1 : Vec F S1x16x1024x64 .f32) (x2 : Vec F S1x16x1024x64 .f32) (x3 : Vec F S1x1x256x1024 .i32) :
    out0_A_4 c i arg3 harg3 arg4 harg4 arg5 harg5 arg6 harg6 arg7 harg7 arg8 harg8 x0 x1 x2 x3 = k0_pay1 (k0_pay2 (headRows i x2)) (k0_pay3 x0 (headRows i x1) x3) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_words
  rw [View.canon_unit_zero zero4]
  simp only [View.readAt_eq_ld, harg3.read_unread, harg4.read_unread, harg5.read_unread, harg6.read_unread,
    View.ld_unit_zero (S := S1x1x256x64) zero4, View.ld_unit_zero (S := S1x1x256x1024) zero4]
  rfl

end Cert.KernelIdeal.AttnPieces

end
-- ==== Proof.AttnSpec.lean ====
/-
  Masked scaled-dot-product attention, stated once over plain index functions.

  For a batch b, a head h and a query row q the masked score row is
      w k = (mask b q k = 0 ? fill : score (Q b h q ·) (K b h k ·)),
  its softmax is  exp (w k - max w) / Σ k', exp (w k' - max w),  and the output row is the
  softmax-weighted sum of the rows of V.  The score of two 64-vectors is left a parameter: the two
  programs compare a dot product of a pre-scaled query,  Σ d, (q d · 1/8) · k d,  with a dot product
  divided by a square root,  (Σ d, q d · k d) / √64.  On finite vectors these are one number
  (`scaledDot_eq_dotOverRoot`): √64 = 8, a quotient by 8 is a product with 1/8, and a real factor
  moves across a finite sum of reals.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx

abbrev SQ : Shape := ⟨4, ![4, 16, 1024, 64]⟩
abbrev SM : Shape := ⟨4, ![4, 1, 1024, 1024]⟩
abbrev SA : Shape := ⟨4, ![4, 16, 1024, 1024]⟩

/-- The value a masked-out score is replaced by (the same finite word in both programs; never evaluated). -/
abbrev fill : EReal := Ideal.ofBits .f32 0xCE6E6B28#32

/-- A score row with the masked-out positions (mask word zero) replaced by `fill`. -/
def maskRow (mk : Fin 1024 → BitVec 32) (s : Fin 1024 → EReal) : Fin 1024 → EReal :=
  fun k => Scalar.select (IntOp.cmpi .eq (mk k) 0#32) fill (s k)

/-- The maximum of a row, folded from the bottom element's word. -/
def rowMax (w : Fin 1024 → EReal) : EReal :=
  (Finset.univ : Finset (Fin 1024)).fold max (Ideal.ofBits .f32 0xFF800000#32) w

/-- The softmax of a row at position `k`. -/
def softRow (w : Fin 1024 → EReal) (k : Fin 1024) : EReal :=
  Ideal.div (Ideal.exp (w k - rowMax w)) (∑ k' : Fin 1024, Ideal.exp (w k' - rowMax w))

/-- The score as the kernel computes it: the query scaled by 1/8 first, then the dot product. -/
def scaledDot (q kk : Fin 64 → EReal) : EReal :=
  ∑ d : Fin 64, (q d * Ideal.ofBits .f32 0x3E000000#32) * kk d

/-- The score as the reference computes it: the dot product, divided by √64. -/
def dotOverRoot (q kk : Fin 64 → EReal) : EReal :=
  Ideal.div (∑ d : Fin 64, q d * kk d) (Ideal.sqrt (Ideal.ofBits .f32 0x42800000#32))

/-- The attention weight of key `k` for query `(b, h, q)`, for a given score function. -/
def attnAt (sc : (Fin 64 → EReal) → (Fin 64 → EReal) → EReal) (Q K : SQ.Idx → EReal) (M : SM.Idx → BitVec 32)
    (b : Fin 4) (h : Fin 16) (q k : Fin 1024) : EReal :=
  softRow (maskRow (fun k' => M (ix4 b (0 : Fin 1) q k'))
    (fun k' => sc (fun d => Q (ix4 b h q d)) (fun d => K (ix4 b h k' d)))) k

/-- The output entry `(b, h, q, d)`: the attention weights of the row against column `d` of V. -/
def outAt (sc : (Fin 64 → EReal) → (Fin 64 → EReal) → EReal) (Q K V : SQ.Idx → EReal) (M : SM.Idx → BitVec 32)
    (b : Fin 4) (h : Fin 16) (q : Fin 1024) (d : Fin 64) : EReal :=
  ∑ k : Fin 1024, attnAt sc Q K M b h q k * V (ix4 b h k d)

/-- The attention matrix as an array. -/
def attnArr (sc : (Fin 64 → EReal) → (Fin 64 → EReal) → EReal) (Q K : SQ.Idx → EReal) (M : SM.Idx → BitVec 32) :
    SA.Idx → EReal := fun i => attnAt sc Q K M (i 0) (i 1) (i 2) (i 3)

/-- The attention output as an array. -/
def outArr (sc : (Fin 64 → EReal) → (Fin 64 → EReal) → EReal) (Q K V : SQ.Idx → EReal) (M : SM.Idx → BitVec 32) :
    SQ.Idx → EReal := fun i => outAt sc Q K V M (i 0) (i 1) (i 2) (i 3)

/-! ## The two scores agree on finite vectors -/

/-- A finite sum of reals, taken in the extended reals, is the real sum. -/
theorem coe_sum {ι : Type} (s : Finset ι) (f : ι → ℝ) : ∑ i ∈ s, (f i : EReal) = ((∑ i ∈ s, f i : ℝ) : EReal) := by
  classical
  refine Finset.induction_on s (by simp) (fun a s ha ih => ?_)
  rw [Finset.sum_insert ha, Finset.sum_insert ha, ih, EReal.coe_add]

theorem eighth : Ideal.ofBits .f32 0x3E000000#32 = ((1 / 8 : ℝ) : EReal) := by
  simp [Ideal.ofBits, Ideal.ieee, -EReal.coe_mul]; norm_num

theorem sixtyfour : Ideal.ofBits .f32 0x42800000#32 = ((64 : ℝ) : EReal) := by
  simp [Ideal.ofBits, Ideal.ieee, -EReal.coe_mul]; norm_num

theorem sqrt_sixtyfour : Ideal.sqrt ((64 : ℝ) : EReal) = ((8 : ℝ) : EReal) := by
  rw [Ideal.sqrt_coe, if_neg (by norm_num)]
  refine congrArg _ ?_
  rw [show (64 : ℝ) = 8 ^ 2 by norm_num]
  exact Real.sqrt_sq (by norm_num)

/-- On finite vectors, scaling the query by 1/8 before the dot product is dividing the dot product by √64. -/
theorem scaledDot_eq_dotOverRoot (q kk : Fin 64 → EReal) (hq : ∀ d, ∃ r : ℝ, q d = (r : EReal))
    (hk : ∀ d, ∃ r : ℝ, kk d = (r : EReal)) : scaledDot q kk = dotOverRoot q kk := by
  choose qr hqr using hq
  choose kr hkr using hk
  unfold scaledDot dotOverRoot
  rw [eighth, sixtyfour, sqrt_sixtyfour, Ideal.div_coe (by norm_num : (8 : ℝ) ≠ 0)]
  simp only [hqr, hkr, ← EReal.coe_mul]
  rw [coe_sum, coe_sum, ← EReal.coe_mul]
  refine congrArg _ ?_
  rw [Finset.sum_mul]
  exact Finset.sum_congr rfl fun d _ => by ring

/-- So the two attention matrices agree when Q and K are finite … -/
theorem attnArr_scaled_eq (Q K : SQ.Idx → EReal) (M : SM.Idx → BitVec 32) (hQ : ∀ i, ∃ r : ℝ, Q i = (r : EReal))
    (hK : ∀ i, ∃ r : ℝ, K i = (r : EReal)) : attnArr scaledDot Q K M = attnArr dotOverRoot Q K M := by
  funext i
  unfold attnArr attnAt
  refine congrArg (fun s => softRow (maskRow _ s) _) ?_
  funext k'
  exact scaledDot_eq_dotOverRoot _ _ (fun d => hQ _) (fun d => hK _)

/-- … and with them the two outputs. -/
theorem outArr_scaled_eq (Q K V : SQ.Idx → EReal) (M : SM.Idx → BitVec 32) (hQ : ∀ i, ∃ r : ℝ, Q i = (r : EReal))
    (hK : ∀ i, ∃ r : ℝ, K i = (r : EReal)) : outArr scaledDot Q K V M = outArr dotOverRoot Q K V M := by
  funext i
  unfold outArr outAt
  refine Finset.sum_congr rfl fun k _ => ?_
  have := congrFun (attnArr_scaled_eq Q K M hQ hK) (ix4 (i 0) (i 1) (i 2) k)
  unfold attnArr at this
  exact congrArg (· * _) this

/-! ## Two small facts the reference's spelling of the softmax needs -/

/-- Taking the maximum with the fold's own start value changes nothing. -/
theorem max_start_rowMax (w : Fin 1024 → EReal) : max (Ideal.ofBits .f32 0xFF800000#32) (rowMax w) = rowMax w :=
  max_eq_right ((Finset.le_fold_max _).2 (Or.inl le_rfl))

end Cert.AttnSpec

end
-- ==== Proof.LibKeepdims.lean ====
/-
  Layout operations of a row-wise reduction kept as a column, read at an index written by coordinates:
  a block with two leading unit axes viewed as a matrix and back, a vector viewed as a one-column matrix,
  and a one-column matrix broadcast along its rows.  Each is the general read-at-an-index lemma of the
  layout operation with the operand's index already chosen.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector kept as a column and broadcast along the rows reads, at `(p, c)`, the vector at `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibKeepdims

end
-- ==== Proof.KernelPayload.lean ====
/-
  The body's arithmetic, read entry by entry at the exact values.

  For a query block x0 (256 rows), the key rows x6 and the value rows of one head (1024 rows each) and a mask
  block x14, row r of the body's softmax term is the softmax of the masked row of scores
      s k = Σ d, (x0 r d · 1/8) · x6 k d,
  and entry (r, d) of the body's output term is  Σ k, softmax r k · value k d.  The changes of float format are
  the identity, the two matrix products into a zero accumulator are plain sums over the contracted axis, the
  row maximum is the fold of max from the bottom word, the row sum is a sum, and a row result kept as a column
  and broadcast back reads the row's own entry.
-/
import proofs.«117605_j17154099380895_2_alg».proof.Proof.Gen.KernelIdeal.Skeleton
import proofs.«117605_j17154099380895_2_alg».proof.Proof.AttnSpec
import proofs.«117605_j17154099380895_2_alg».proof.Proof.LibKeepdims
import Idealize.ShloMosaic.PureOps.Ideal.Laws
import Idealize.ShloMosaic.Lib.ValueIdx
import Idealize.ShloMosaic.Lib.Pipeline.Value

noncomputable section

namespace Cert.KernelIdeal.AttnPayload

open Cert.KernelIdeal Cert.KernelIdeal.Gen Idealize.ShloMosaic Idealize.ShloMosaic.ValueIdx Cert.AttnSpec Cert.LibKeepdims

/-! ## The two matrix products as sums -/

theorem scores_lhs0 (j : S256x1024.Idx) (q : dot_S256x64_S1024x64_S256x1024_1_1_0_0_n_n.contr.Idx) : (dot_S256x64_S1024x64_S256x1024_1_1_0_0_n_n.lhsIdx j q 0).val = (j 0).val := by
  unfold DotDims.lhsIdx
  rw [dif_neg (show ¬(0 : Fin S256x64.rank) ∈ dot_S256x64_S1024x64_S256x1024_1_1_0_0_n_n.lhsBatch by decide), dif_pos (show (0 : Fin S256x64.rank) ∈ dot_S256x64_S1024x64_S256x1024_1_1_0_0_n_n.lhsNonContracting by decide)]
  rfl
theorem scores_rhs0 (j : S256x1024.Idx) (q : dot_S256x64_S1024x64_S256x1024_1_1_0_0_n_n.contr.Idx) : (dot_S256x64_S1024x64_S256x1024_1_1_0_0_n_n.rhsIdx j q 0).val = (j 1).val := by
  unfold DotDims.rhsIdx
  rw [dif_neg (show ¬(0 : Fin S1024x64.rank) ∈ dot_S256x64_S1024x64_S256x1024_1_1_0_0_n_n.rhsBatch by decide), dif_pos (show (0 : Fin S1024x64.rank) ∈ dot_S256x64_S1024x64_S256x1024_1_1_0_0_n_n.rhsNonContracting by decide)]
  rfl
theorem weighted_lhs0 (j : S256x64.Idx) (q : dot_S256x1024_S1024x64_S256x64_1_0_0_1_n_n.contr.Idx) : (dot_S256x1024_S1024x64_S256x64_1_0_0_1_n_n.lhsIdx j q 0).val = (j 0).val := by
  unfold DotDims.lhsIdx
  rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
  rfl
theorem weighted_rhs1 (j : S256x64.Idx) (q : dot_S256x1024_S1024x64_S256x64_1_0_0_1_n_n.contr.Idx) : (dot_S256x1024_S1024x64_S256x64_1_0_0_1_n_n.rhsIdx j q 1).val = (j 1).val := by
  unfold DotDims.rhsIdx
  rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
  rfl

/-- Query rows against key rows, contracted over the 64 features: entry (r, k) is Σ d, a r d · b k d. -/
theorem scores_apply (a : FVec Ideal S256x64 .bf16) (b : FVec Ideal S1024x64 .bf16) (r : Fin 256) (k : Fin 1024) :
    matmul dot_S256x64_S1024x64_S256x1024_1_1_0_0_n_n none a b (constant S256x1024 .f32 0x00000000#32) (ix2 r k)
      = ∑ d : Fin 64, a (ix2 r d) * b (ix2 k d) := by
  simp only [matmul]
  rw [Ideal.matmul_constant_zero_apply, ← Equiv.sum_comp (contrEquiv1 dot_S256x64_S1024x64_S256x1024_1_1_0_0_n_n 64 rfl rfl).symm]
  refine Finset.sum_congr rfl fun d _ => ?_
  have hd := contrEquiv1_symm_val dot_S256x64_S1024x64_S256x1024_1_1_0_0_n_n 64 rfl rfl d
  have el : dot_S256x64_S1024x64_S256x1024_1_1_0_0_n_n.lhsIdx (ix2 r k) ((contrEquiv1 dot_S256x64_S1024x64_S256x1024_1_1_0_0_n_n 64 rfl rfl).symm d) = ix2 r d := funext fun ax => Fin.ext (by
    match ax with
    | ⟨0, _⟩ => exact scores_lhs0 _ _
    | ⟨1, _⟩ => exact (dot_S256x64_S1024x64_S256x1024_1_1_0_0_n_n.lhsIdx_val_of_single rfl _ _).trans hd)
  have er : dot_S256x64_S1024x64_S256x1024_1_1_0_0_n_n.rhsIdx (ix2 r k) ((contrEquiv1 dot_S256x64_S1024x64_S256x1024_1_1_0_0_n_n 64 rfl rfl).symm d) = ix2 k d := funext fun ax => Fin.ext (by
    match ax with
    | ⟨0, _⟩ => exact scores_rhs0 _ _
    | ⟨1, _⟩ => exact (dot_S256x64_S1024x64_S256x1024_1_1_0_0_n_n.rhsIdx_val_of_single rfl _ _).trans hd)
  rw [el, er]

/-- Attention rows against value rows, contracted over the 1024 keys: entry (r, d) is Σ k, p r k · v k d. -/
theorem weighted_apply (p : FVec Ideal S256x1024 .bf16) (v : FVec Ideal S1024x64 .bf16) (r : Fin 256) (d : Fin 64) :
    matmul dot_S256x1024_S1024x64_S256x64_1_0_0_1_n_n none p v (constant S256x64 .f32 0x00000000#32) (ix2 r d)
      = ∑ k : Fin 1024, p (ix2 r k) * v (ix2 k d) := by
  simp only [matmul]
  rw [Ideal.matmul_constant_zero_apply, ← Equiv.sum_comp (contrEquiv1 dot_S256x1024_S1024x64_S256x64_1_0_0_1_n_n 1024 rfl rfl).symm]
  refine Finset.sum_congr rfl fun k _ => ?_
  have hk := contrEquiv1_symm_val dot_S256x1024_S1024x64_S256x64_1_0_0_1_n_n 1024 rfl rfl k
  have el : dot_S256x1024_S1024x64_S256x64_1_0_0_1_n_n.lhsIdx (ix2 r d) ((contrEquiv1 dot_S256x1024_S1024x64_S256x64_1_0_0_1_n_n 1024 rfl rfl).symm k) = ix2 r k := funext fun ax => Fin.ext (by
    match ax with
    | ⟨0, _⟩ => exact weighted_lhs0 _ _
    | ⟨1, _⟩ => exact (dot_S256x1024_S1024x64_S256x64_1_0_0_1_n_n.lhsIdx_val_of_single rfl _ _).trans hk)
  have er : dot_S256x1024_S1024x64_S256x64_1_0_0_1_n_n.rhsIdx (ix2 r d) ((contrEquiv1 dot_S256x1024_S1024x64_S256x64_1_0_0_1_n_n 1024 rfl rfl).symm k) = ix2 k d := funext fun ax => Fin.ext (by
    match ax with
    | ⟨0, _⟩ => exact (dot_S256x1024_S1024x64_S256x64_1_0_0_1_n_n.rhsIdx_val_of_single rfl _ _).trans hk
    | ⟨1, _⟩ => exact weighted_rhs1 _ _)
  rw [el, er]

/-! ## The row reductions -/

/-- The inserted index of a reduction over the second axis of a 256 × 1024 matrix: row r, column k. -/
theorem lift_eq (h : S256x1024.Reduces [1] S256) (r : Fin 256) (k : Fin 1024) : h.lift (ix1 r) k = ix2 r k :=
  funext fun ax => Fin.ext (by match ax with | ⟨0, _⟩ => rfl | ⟨1, _⟩ => rfl)

/-- The row maximum: the fold of max from the bottom word over the row's 1024 entries. -/
theorem rowmax_apply (w : FVec Ideal S256x1024 .f32) (h : S256x1024.Reduces [1] S256) (hφ : FKind.Formats .f32)
    (hacc : (0xFF800000#32 : BitVec 32) = FKind.maximumf.neutral .f32 hφ) (r : Fin 256) :
    multiReduction .maximumf [1] S256 w 0xFF800000#32 h hφ hacc (ix1 r) = rowMax (fun k => w (ix2 r k)) := by
  refine (Ideal.multiReduction_maximumf_single w _ h hφ hacc (ix1 r)).trans ?_
  unfold rowMax
  show Finset.fold max _ (fun k : Fin 1024 => w (h.lift (ix1 r) k)) Finset.univ = _
  simp only [lift_eq]
  rfl

/-- The row sum. -/
theorem rowsum_apply (w : FVec Ideal S256x1024 .f32) (h : S256x1024.Reduces [1] S256) (hφ : FKind.Formats .f32)
    (hacc : (0x00000000#32 : BitVec 32) = FKind.add.neutral .f32 hφ) (r : Fin 256) :
    multiReduction .add [1] S256 w 0x00000000#32 h hφ hacc (ix1 r) = ∑ k : Fin 1024, w (ix2 r k) := by
  refine (Ideal.multiReduction_add_single w _ h hφ hacc (ix1 r)).trans ?_
  show ∑ k : Fin 1024, w (h.lift (ix1 r) k) = _
  simp only [lift_eq]

/-! ## The softmax of a matrix of scores, row by row -/

/-- The body's softmax of a 256 × 1024 matrix, in the body's own operations. -/
def softRows (w : FVec Ideal S256x1024 .f32) : FVec Ideal S256x1024 .f32 :=
  have v20 : FVec Ideal S256 .f32 := multiReduction .maximumf [1] S256 w 0xFF800000#32 reduces_S256x1024_S256 (.inl rfl) rfl
  have v22 : FVec Ideal S256x1024 .f32 := broadcastTo S256x1024 (shapeCast S256x1 v20 shapeCasts_S256_S256x1) broadcasts_S256x1_S256x1024
  have v24 : FVec Ideal S256x1024 .f32 := exp (subf w v22)
  have v25 : FVec Ideal S256 .f32 := multiReduction .add [1] S256 v24 0x00000000#32 reduces_S256x1024_S256 (.inl rfl) rfl
  have v27 : FVec Ideal S256x1024 .f32 := broadcastTo S256x1024 (shapeCast S256x1 v25 shapeCasts_S256_S256x1) broadcasts_S256x1_S256x1024
  divf v24 v27

/-- Entry (r, k) of it is the softmax of row r at k. -/
theorem softRows_apply (w : FVec Ideal S256x1024 .f32) (r : Fin 256) (k : Fin 1024) :
    softRows w (ix2 r k) = softRow (fun k' => w (ix2 r k')) k := by
  unfold softRows softRow
  dsimp only
  have hmax : ∀ k' : Fin 1024, broadcastTo S256x1024 (shapeCast S256x1 (multiReduction .maximumf [1] S256 w 0xFF800000#32 reduces_S256x1024_S256 (.inl rfl) rfl) shapeCasts_S256_S256x1) broadcasts_S256x1_S256x1024 (ix2 r k')
      = rowMax (fun k'' => w (ix2 r k'')) := fun k' =>
    (keepdims_apply _ shapeCasts_S256_S256x1 broadcasts_S256x1_S256x1024 r k').trans (rowmax_apply w _ _ _ r)
  have hexp : ∀ k' : Fin 1024, exp (subf w (broadcastTo S256x1024 (shapeCast S256x1 (multiReduction .maximumf [1] S256 w 0xFF800000#32 reduces_S256x1024_S256 (.inl rfl) rfl) shapeCasts_S256_S256x1) broadcasts_S256x1_S256x1024)) (ix2 r k')
      = Ideal.exp (w (ix2 r k') - rowMax (fun k'' => w (ix2 r k''))) := fun k' => by
    show Ideal.exp (w (ix2 r k') - _) = _
    rw [hmax k']
  show Ideal.div _ _ = _
  rw [hexp k]
  refine congrArg (Ideal.div _) ?_
  refine (keepdims_apply _ shapeCasts_S256_S256x1 broadcasts_S256x1_S256x1024 r k).trans ?_
  refine (rowsum_apply _ _ _ _ r).trans ?_
  exact Finset.sum_congr rfl fun k' _ => hexp k'

/-! ## The masked scores -/

/-- The body's masked score matrix of a query block, one head's key rows and a mask block. -/
def maskedScores (v0 : Vec Ideal S1x1x256x64 .f32) (v6 : Vec Ideal S1x1x1024x64 .f32) (v14 : Vec Ideal S1x1x256x1024 .i32) :
    FVec Ideal S256x1024 .f32 :=
  have v1 : FVec Ideal S256x64 .f32 := shapeCast S256x64 v0 shapeCasts_S1x1x256x64_S256x64
  have cst : Ideal .f32 := Scalar.ofBits .f32 0x3E000000#32
  have v4 : FVec Ideal S256x64 .bf16 := truncf .bf16 (mulf v1 (broadcast S256x64 cst)) bitsLt_bf16_f32
  have v8 : FVec Ideal S1024x64 .bf16 := truncf .bf16 (shapeCast S1024x64 v6 shapeCasts_S1x1x1024x64_S1024x64) bitsLt_bf16_f32
  have v13 : FVec Ideal S256x1024 .f32 := matmul dot_S256x64_S1024x64_S256x1024_1_1_0_0_n_n none v4 v8 (constant S256x1024 .f32 0x00000000#32)
  have v15 : IVec S256x1024 32 := shapeCast S256x1024 v14 shapeCasts_S1x1x256x1024_S256x1024
  have v17 : IVec S256x1024 1 := cmpi .eq v15 (broadcast S256x1024 0#32)
  have cst_14 : Ideal .f32 := Scalar.ofBits .f32 0xCE6E6B28#32
  select v17 (broadcast S256x1024 cst_14) v13

/-- Entry (r, k) of it: the fill value where the mask word is zero, else the scaled dot product of query row r
    with key row k. -/
theorem maskedScores_apply (v0 : Vec Ideal S1x1x256x64 .f32) (v6 : Vec Ideal S1x1x1024x64 .f32) (v14 : Vec Ideal S1x1x256x1024 .i32)
    (r : Fin 256) (k : Fin 1024) :
    maskedScores v0 v6 v14 (ix2 r k)
      = maskRow (fun k' => v14 (ix4 (0 : Fin 1) (0 : Fin 1) r k'))
          (fun k' => scaledDot (fun d => v0 (ix4 (0 : Fin 1) (0 : Fin 1) r d)) (fun d => v6 (ix4 (0 : Fin 1) (0 : Fin 1) k' d))) k := by
  unfold maskedScores maskRow scaledDot
  dsimp only
  show Scalar.select (IntOp.cmpi .eq (shapeCast S256x1024 v14 shapeCasts_S1x1x256x1024_S256x1024 (ix2 r k)) 0#32) _ (matmul dot_S256x64_S1024x64_S256x1024_1_1_0_0_n_n none _ _ _ (ix2 r k)) = _
  rw [shapeCast_11ab_ab_apply, scores_apply]
  refine congrArg (Scalar.select _ _) (Finset.sum_congr rfl fun d _ => ?_)
  show (shapeCast S256x64 v0 shapeCasts_S1x1x256x64_S256x64 (ix2 r d) * _) * shapeCast S1024x64 v6 shapeCasts_S1x1x1024x64_S1024x64 (ix2 k d) = _
  rw [shapeCast_11ab_ab_apply, shapeCast_11ab_ab_apply]
  rfl

/-! ## The payloads -/

/-- The body's softmax term is the row softmax of its masked scores (the same operations, regrouped). -/
theorem pay3_eq (v0 : Vec Ideal S1x1x256x64 .f32) (v6 : Vec Ideal S1x1x1024x64 .f32) (v14 : Vec Ideal S1x1x256x1024 .i32) :
    k0_pay3 (F := Ideal) v0 v6 v14 = softRows (maskedScores v0 v6 v14) := rfl

/-- Entry (r, k) of the body's softmax term. -/
theorem pay3_apply (v0 : Vec Ideal S1x1x256x64 .f32) (v6 : Vec Ideal S1x1x1024x64 .f32) (v14 : Vec Ideal S1x1x256x1024 .i32)
    (r : Fin 256) (k : Fin 1024) :
    k0_pay3 (F := Ideal) v0 v6 v14 (ix2 r k)
      = softRow (maskRow (fun k' => v14 (ix4 (0 : Fin 1) (0 : Fin 1) r k'))
          (fun k' => scaledDot (fun d => v0 (ix4 (0 : Fin 1) (0 : Fin 1) r d)) (fun d => v6 (ix4 (0 : Fin 1) (0 : Fin 1) k' d)))) k := by
  rw [pay3_eq, softRows_apply]
  refine congrArg (fun w => softRow w k) (funext fun k' => ?_)
  exact maskedScores_apply v0 v6 v14 r k'

/-- The attention block stored: the softmax term with two leading unit axes added. -/
theorem pay4_apply (v0 : Vec Ideal S1x1x256x64 .f32) (v6 : Vec Ideal S1x1x1024x64 .f32) (v14 : Vec Ideal S1x1x256x1024 .i32)
    (u v : Fin 1) (r : Fin 256) (k : Fin 1024) :
    k0_pay4 (F := Ideal) v0 v6 v14 (ix4 u v r k) = k0_pay3 (F := Ideal) v0 v6 v14 (ix2 r k) := by
  unfold k0_pay4
  exact shapeCast_ab_11ab_apply _ _ u v r k

/-- The output block stored: entry (r, d) is the softmax row r against column d of the value rows. -/
theorem pay1_apply (v10 : Vec Ideal S1x1x1024x64 .f32) (v28 : FVec Ideal S256x1024 .f32) (u v : Fin 1) (r : Fin 256) (d : Fin 64) :
    k0_pay1 (F := Ideal) (k0_pay2 v10) v28 (ix4 u v r d)
      = ∑ k : Fin 1024, v28 (ix2 r k) * v10 (ix4 (0 : Fin 1) (0 : Fin 1) k d) := by
  unfold k0_pay1 k0_pay2
  dsimp only
  refine (shapeCast_ab_11ab_apply _ _ u v r d).trans ?_
  rw [weighted_apply]
  refine Finset.sum_congr rfl fun k _ => ?_
  show v28 (ix2 r k) * shapeCast S1024x64 v10 shapeCasts_S1x1x1024x64_S1024x64 (ix2 k d) = _
  rw [shapeCast_11ab_ab_apply]

end Cert.KernelIdeal.AttnPayload

end
-- ==== Proof.KernelPoint.lean ====
/-
  One grid point against the whole arrays.

  Point (b, qi, h) is given the query rows 256·qi … 256·qi + 255 of head h of batch b, ALL heads' key and value
  rows of batch b (of which the body reads head h's), and the mask rows 256·qi … of batch b.  So the attention
  block it leaves is rows 256·qi … of the attention matrix of (b, h), and its output block the same rows of the
  attention output.
-/
import proofs.«117605_j17154099380895_2_alg».proof.Proof.KernelPieces
import proofs.«117605_j17154099380895_2_alg».proof.Proof.KernelPayload

noncomputable section

namespace Cert.KernelIdeal.AttnPoint

open Cert.KernelIdeal Cert.KernelIdeal.Gen Idealize.ShloMosaic Idealize.ShloMosaic.ValueIdx Cert.AttnSpec
open Cert.KernelIdeal.AttnPieces Cert.KernelIdeal.AttnPayload

/-- Row r of query tile qi. -/
def qrow (qi : Fin 4) (r : Fin 256) : Fin 1024 := ⟨qi.val * 256 + r.val, by omega⟩

/-- The rows of the point's head, read at (k, d): the per-batch block at (h, k, d). -/
theorem headRows_apply (i : grid0.Coords) (x : Vec Ideal S1x16x1024x64 .f32) (h : Fin 16) (hi : (i 2).val = h.val)
    (u v : Fin 1) (k : Fin 1024) (d : Fin 64) :
    headRows i x (ix4 u v k d) = x (ix4 (0 : Fin 1) h k d) := by
  show x ((Rect.unit (s := S1x16x1024x64) (k0_off1 i) S1x1x1024x64.size (Gen.k0_off1_inb i)).idx (ix4 u v k d)) = _
  refine congrArg x (funext fun a => Fin.ext ?_)
  have e := Gen.k0_off1_eq i
  match a with
  | ⟨0, _⟩ => show k0_off1 i (0 : Fin 4) + 1 * u.val = 0; rw [e]; show 0 + 1 * u.val = 0; omega
  | ⟨1, _⟩ => show k0_off1 i (1 : Fin 4) + 1 * v.val = h.val; rw [e]; show (i 2).val + 1 * v.val = h.val; omega
  | ⟨2, _⟩ => show k0_off1 i (2 : Fin 4) + 1 * k.val = k.val; rw [e]; show 0 + 1 * k.val = k.val; omega
  | ⟨3, _⟩ => show k0_off1 i (3 : Fin 4) + 1 * d.val = d.val; rw [e]; show 0 + 1 * d.val = d.val; omega

/-- The attention block of point (b, qi, h) is rows 256·qi … of the attention matrix of (b, h). -/
theorem attn_point (Q K : SQ.Idx → EReal) (M : SM.Idx → BitVec 32)
    (x0 : Vec Ideal S1x1x256x64 .f32) (x1 : Vec Ideal S1x16x1024x64 .f32) (x3 : Vec Ideal S1x1x256x1024 .i32)
    (i : grid0.Coords) (b : Fin 4) (h : Fin 16) (qi : Fin 4) (hi : (i 2).val = h.val)
    (hx0 : ∀ (r : Fin 256) (d : Fin 64), x0 (ix4 (0 : Fin 1) (0 : Fin 1) r d) = Q (ix4 b h (qrow qi r) d))
    (hx1 : ∀ (h' : Fin 16) (k : Fin 1024) (d : Fin 64), x1 (ix4 (0 : Fin 1) h' k d) = K (ix4 b h' k d))
    (hx3 : ∀ (r : Fin 256) (k : Fin 1024), x3 (ix4 (0 : Fin 1) (0 : Fin 1) r k) = M (ix4 b (0 : Fin 1) (qrow qi r) k))
    (u v : Fin 1) (r : Fin 256) (k : Fin 1024) :
    k0_pay4 (F := Ideal) x0 (headRows i x1) x3 (ix4 u v r k) = attnAt scaledDot Q K M b h (qrow qi r) k := by
  rw [pay4_apply, pay3_apply]
  unfold attnAt
  have hm : (fun k' : Fin 1024 => x3 (ix4 (0 : Fin 1) (0 : Fin 1) r k')) = fun k' => M (ix4 b (0 : Fin 1) (qrow qi r) k') :=
    funext fun k' => hx3 r k'
  have hq : (fun d : Fin 64 => x0 (ix4 (0 : Fin 1) (0 : Fin 1) r d)) = fun d => Q (ix4 b h (qrow qi r) d) :=
    funext fun d => hx0 r d
  have hk : ∀ k' : Fin 1024, (fun d : Fin 64 => headRows i x1 (ix4 (0 : Fin 1) (0 : Fin 1) k' d)) = fun d => K (ix4 b h k' d) :=
    fun k' => funext fun d => (headRows_apply i x1 h hi 0 0 k' d).trans (hx1 h k' d)
  rw [hm, hq]
  simp only [hk]

/-- The output block of point (b, qi, h) is rows 256·qi … of the attention output of (b, h). -/
theorem out_point (Q K V : SQ.Idx → EReal) (M : SM.Idx → BitVec 32)
    (x0 : Vec Ideal S1x1x256x64 .f32) (x1 x2 : Vec Ideal S1x16x1024x64 .f32) (x3 : Vec Ideal S1x1x256x1024 .i32)
    (i : grid0.Coords) (b : Fin 4) (h : Fin 16) (qi : Fin 4) (hi : (i 2).val = h.val)
    (hx0 : ∀ (r : Fin 256) (d : Fin 64), x0 (ix4 (0 : Fin 1) (0 : Fin 1) r d) = Q (ix4 b h (qrow qi r) d))
    (hx1 : ∀ (h' : Fin 16) (k : Fin 1024) (d : Fin 64), x1 (ix4 (0 : Fin 1) h' k d) = K (ix4 b h' k d))
    (hx2 : ∀ (h' : Fin 16) (k : Fin 1024) (d : Fin 64), x2 (ix4 (0 : Fin 1) h' k d) = V (ix4 b h' k d))
    (hx3 : ∀ (r : Fin 256) (k : Fin 1024), x3 (ix4 (0 : Fin 1) (0 : Fin 1) r k) = M (ix4 b (0 : Fin 1) (qrow qi r) k))
    (u v : Fin 1) (r : Fin 256) (d : Fin 64) :
    k0_pay1 (F := Ideal) (k0_pay2 (headRows i x2)) (k0_pay3 x0 (headRows i x1) x3) (ix4 u v r d)
      = outAt scaledDot Q K V M b h (qrow qi r) d := by
  rw [pay1_apply]
  unfold outAt
  refine Finset.sum_congr rfl fun k _ => ?_
  rw [headRows_apply i x2 h hi 0 0 k d, hx2, ← attn_point Q K M x0 x1 x3 i b h qi hi hx0 hx1 hx3 0 0 r k, pay4_apply]

end Cert.KernelIdeal.AttnPoint

end
-- ==== Proof.KernelArrays.lean ====
/-
  From the grid points' blocks to the two whole result arrays.

  The grid is 4 × 4 × 16: point t has batch t / 64 mod 4, query tile t / 16 mod 4 and head t mod 16.  The query,
  output and attention blocks of a point sit at (batch, head, tile); the key and value blocks at (batch) span all
  heads and rows; the mask block sits at (batch, tile).  Every point writes its two blocks back, the blocks tile the
  two result arrays, and each block is the corresponding rows of one whole-array function: the attention matrix
  and the attention output of the argument arrays.  So after the run the result arrays are those functions.
-/
import proofs.«117605_j17154099380895_2_alg».proof.Proof.Gen.KernelIdeal.Value
import proofs.«117605_j17154099380895_2_alg».proof.Proof.KernelPoint

noncomputable section

namespace Cert.KernelIdeal.AttnValue

open Cert.KernelIdeal Cert.KernelIdeal.Gen Idealize.ShloMosaic Idealize.ShloMosaic.TcCoe Idealize.SL.Sem
open Idealize.ShloMosaic.Pipeline (Dat)
open Idealize.ShloMosaic.ValueIdx Cert.AttnSpec
open Cert.KernelIdeal.AttnPieces Cert.KernelIdeal.AttnPoint

variable (m : (ℓ : Loc nD τ sig) → Buf (Elt Ideal) ℓ) (ρ : Dev nD → PrngReg)

/-! ## Where each window's block sits, point by point -/

/-- The printed index maps, decided over the 256 grid points. -/
theorem idx_facts : ∀ t : Fin cfg0.N,
    (win0_0.index t (0 : Fin 4) = t.val / 64 % 4 ∧ win0_0.index t (1 : Fin 4) = t.val % 16 ∧ win0_0.index t (2 : Fin 4) = t.val / 16 % 4 ∧ win0_0.index t (3 : Fin 4) = 0)
    ∧ (win0_1.index t (0 : Fin 4) = t.val / 64 % 4 ∧ win0_1.index t (1 : Fin 4) = 0 ∧ win0_1.index t (2 : Fin 4) = 0 ∧ win0_1.index t (3 : Fin 4) = 0)
    ∧ (win0_2.index t (0 : Fin 4) = t.val / 64 % 4 ∧ win0_2.index t (1 : Fin 4) = 0 ∧ win0_2.index t (2 : Fin 4) = 0 ∧ win0_2.index t (3 : Fin 4) = 0)
    ∧ (win0_3.index t (0 : Fin 4) = t.val / 64 % 4 ∧ win0_3.index t (1 : Fin 4) = 0 ∧ win0_3.index t (2 : Fin 4) = t.val / 16 % 4 ∧ win0_3.index t (3 : Fin 4) = 0)
    ∧ (win0_4.index t (0 : Fin 4) = t.val / 64 % 4 ∧ win0_4.index t (1 : Fin 4) = t.val % 16 ∧ win0_4.index t (2 : Fin 4) = t.val / 16 % 4 ∧ win0_4.index t (3 : Fin 4) = 0)
    ∧ (win0_5.index t (0 : Fin 4) = t.val / 64 % 4 ∧ win0_5.index t (1 : Fin 4) = t.val % 16 ∧ win0_5.index t (2 : Fin 4) = t.val / 16 % 4 ∧ win0_5.index t (3 : Fin 4) = 0)
    ∧ (grid0.coords t (2 : Fin 3)).val = t.val % 16 :=
  (by decide +kernel : ∀ t : Fin grid0.N, _)

/-- The batch, the query tile and the head of point t. -/
def pb (t : Fin cfg0.N) : Fin 4 := ⟨t.val / 64 % 4, Nat.mod_lt _ (by decide)⟩
def pq (t : Fin cfg0.N) : Fin 4 := ⟨t.val / 16 % 4, Nat.mod_lt _ (by decide)⟩
def ph (t : Fin cfg0.N) : Fin 16 := ⟨t.val % 16, Nat.mod_lt _ (by decide)⟩

/-- The query block of point t, read at (r, d): the query array at (batch, head, 256·tile + r, d). -/
theorem qblock (c : Dev nD) (t : Fin cfg0.N) (r : Fin 256) (d : Fin 64) :
    iblk m c 0 t (ix4 (0 : Fin 1) (0 : Fin 1) r d) = V m c main_arg0 (ix4 (pb t) (ph t) (qrow (pq t) r) d) := by
  obtain ⟨⟨e0, e1, e2, e3⟩, -⟩ := idx_facts t
  show V m c main_arg0 (((cfg0.win 0).blk t).view.emb (ix4 (0 : Fin 1) (0 : Fin 1) r d)) = _
  refine congrArg (V m c main_arg0) (funext fun a => Fin.ext ?_)
  match a with
  | ⟨0, _⟩ => show win0_0.index t (0 : Fin 4) * 1 + 1 * 0 = t.val / 64 % 4; omega
  | ⟨1, _⟩ => show win0_0.index t (1 : Fin 4) * 1 + 1 * 0 = t.val % 16; omega
  | ⟨2, _⟩ => show win0_0.index t (2 : Fin 4) * 256 + 1 * r.val = t.val / 16 % 4 * 256 + r.val; omega
  | ⟨3, _⟩ => show win0_0.index t (3 : Fin 4) * 64 + 1 * d.val = d.val; omega

/-- The key block of point t, read at (h', k, d): the key array at (batch, h', k, d). -/
theorem kblock (c : Dev nD) (t : Fin cfg0.N) (h' : Fin 16) (k : Fin 1024) (d : Fin 64) :
    iblk m c 1 t (ix4 (0 : Fin 1) h' k d) = V m c main_arg1 (ix4 (pb t) h' k d) := by
  obtain ⟨-, ⟨e0, e1, e2, e3⟩, -⟩ := idx_facts t
  show V m c main_arg1 (((cfg0.win 1).blk t).view.emb (ix4 (0 : Fin 1) h' k d)) = _
  refine congrArg (V m c main_arg1) (funext fun a => Fin.ext ?_)
  match a with
  | ⟨0, _⟩ => show win0_1.index t (0 : Fin 4) * 1 + 1 * 0 = t.val / 64 % 4; omega
  | ⟨1, _⟩ => show win0_1.index t (1 : Fin 4) * 16 + 1 * h'.val = h'.val; omega
  | ⟨2, _⟩ => show win0_1.index t (2 : Fin 4) * 1024 + 1 * k.val = k.val; omega
  | ⟨3, _⟩ => show win0_1.index t (3 : Fin 4) * 64 + 1 * d.val = d.val; omega

/-- The value block of point t likewise. -/
theorem vblock (c : Dev nD) (t : Fin cfg0.N) (h' : Fin 16) (k : Fin 1024) (d : Fin 64) :
    iblk m c 2 t (ix4 (0 : Fin 1) h' k d) = V m c main_arg2 (ix4 (pb t) h' k d) := by
  obtain ⟨-, -, ⟨e0, e1, e2, e3⟩, -⟩ := idx_facts t
  show V m c main_arg2 (((cfg0.win 2).blk t).view.emb (ix4 (0 : Fin 1) h' k d)) = _
  refine congrArg (V m c main_arg2) (funext fun a => Fin.ext ?_)
  match a with
  | ⟨0, _⟩ => show win0_2.index t (0 : Fin 4) * 1 + 1 * 0 = t.val / 64 % 4; omega
  | ⟨1, _⟩ => show win0_2.index t (1 : Fin 4) * 16 + 1 * h'.val = h'.val; omega
  | ⟨2, _⟩ => show win0_2.index t (2 : Fin 4) * 1024 + 1 * k.val = k.val; omega
  | ⟨3, _⟩ => show win0_2.index t (3 : Fin 4) * 64 + 1 * d.val = d.val; omega

/-- The mask block of point t, read at (r, k): the mask array at (batch, 0, 256·tile + r, k). -/
theorem mblock (c : Dev nD) (t : Fin cfg0.N) (r : Fin 256) (k : Fin 1024) :
    iblk m c 3 t (ix4 (0 : Fin 1) (0 : Fin 1) r k) = V m c main_arg3 (ix4 (pb t) (0 : Fin 1) (qrow (pq t) r) k) := by
  obtain ⟨-, -, -, ⟨e0, e1, e2, e3⟩, -⟩ := idx_facts t
  show V m c main_arg3 (((cfg0.win 3).blk t).view.emb (ix4 (0 : Fin 1) (0 : Fin 1) r k)) = _
  refine congrArg (V m c main_arg3) (funext fun a => Fin.ext ?_)
  match a with
  | ⟨0, _⟩ => show win0_3.index t (0 : Fin 4) * 1 + 1 * 0 = t.val / 64 % 4; omega
  | ⟨1, _⟩ => show win0_3.index t (1 : Fin 4) * 1 + 1 * 0 = 0; omega
  | ⟨2, _⟩ => show win0_3.index t (2 : Fin 4) * 256 + 1 * r.val = t.val / 16 % 4 * 256 + r.val; omega
  | ⟨3, _⟩ => show win0_3.index t (3 : Fin 4) * 1024 + 1 * k.val = k.val; omega

/-! ## The two whole-array functions -/

/-- The attention matrix of the argument arrays. -/
abbrev attnOf (c : Dev nD) : S4x16x1024x1024.Idx → EReal :=
  attnArr scaledDot (V m c main_arg0) (V m c main_arg1) (V m c main_arg3)

/-- The attention output of the argument arrays. -/
abbrev outOf (c : Dev nD) : S4x16x1024x64.Idx → EReal :=
  outArr scaledDot (V m c main_arg0) (V m c main_arg1) (V m c main_arg2) (V m c main_arg3)

/-- The arrays at an index whose coordinates are known. -/
theorem attnArr_at (sc : (Fin 64 → EReal) → (Fin 64 → EReal) → EReal) (Q K : SQ.Idx → EReal) (M : SM.Idx → BitVec 32)
    (i : SA.Idx) (b : Fin 4) (h : Fin 16) (q k : Fin 1024) (h0 : (i 0).val = b.val) (h1 : (i 1).val = h.val)
    (h2 : (i 2).val = q.val) (h3 : (i 3).val = k.val) : attnArr sc Q K M i = attnAt sc Q K M b h q k := by
  have e : i = ix4 b h q k := funext fun a => Fin.ext (by
    match a with | ⟨0, _⟩ => exact h0 | ⟨1, _⟩ => exact h1 | ⟨2, _⟩ => exact h2 | ⟨3, _⟩ => exact h3)
  rw [e]
  rfl

theorem outArr_at (sc : (Fin 64 → EReal) → (Fin 64 → EReal) → EReal) (Q K V : SQ.Idx → EReal) (M : SM.Idx → BitVec 32)
    (i : SQ.Idx) (b : Fin 4) (h : Fin 16) (q : Fin 1024) (d : Fin 64) (h0 : (i 0).val = b.val) (h1 : (i 1).val = h.val)
    (h2 : (i 2).val = q.val) (h3 : (i 3).val = d.val) : outArr sc Q K V M i = outAt sc Q K V M b h q d := by
  have e : i = ix4 b h q d := funext fun a => Fin.ext (by
    match a with | ⟨0, _⟩ => exact h0 | ⟨1, _⟩ => exact h1 | ⟨2, _⟩ => exact h2 | ⟨3, _⟩ => exact h3)
  rw [e]
  rfl

/-! ## What each point writes back -/

/-- Point t writes back block t of the attention matrix. -/
theorem attn_flushed (c : Dev nD) (t : Fin cfg0.N) :
    (dats m 0 c).flushed 5 t = ((cfg0.win 5).blk t).view.read (Elt Ideal) (attnOf m c) := by
  rw [Value.flushed5_A, attn_block]
  obtain ⟨-, -, -, -, -, ⟨e0, e1, e2, e3⟩, eh⟩ := idx_facts t
  funext j
  obtain ⟨u, v, r, k, rfl⟩ : ∃ (u v : Fin 1) (r : Fin 256) (k : Fin 1024), j = ix4 u v r k := ⟨j 0, j 1, j 2, j 3, eq_ix4 j⟩
  show k0_pay4 (F := Ideal) (iblk m c 0 t) (headRows (grid0.coords t) (iblk m c 1 t)) (iblk m c 3 t) (ix4 u v r k)
    = attnOf m c (((cfg0.win 5).blk t).view.emb (ix4 u v r k))
  refine (attn_point (V m c main_arg0) (V m c main_arg1) (V m c main_arg3) (iblk m c 0 t) (iblk m c 1 t) (iblk m c 3 t)
    (grid0.coords t) (pb t) (ph t) (pq t) eh (qblock m c t) (kblock m c t) (mblock m c t) u v r k).trans ?_
  refine (attnArr_at scaledDot (V m c main_arg0) (V m c main_arg1) (V m c main_arg3) _ (pb t) (ph t) (qrow (pq t) r) k ?_ ?_ ?_ ?_).symm
  · show win0_5.index t (0 : Fin 4) * 1 + 1 * u.val = t.val / 64 % 4; omega
  · show win0_5.index t (1 : Fin 4) * 1 + 1 * v.val = t.val % 16; omega
  · show win0_5.index t (2 : Fin 4) * 256 + 1 * r.val = t.val / 16 % 4 * 256 + r.val; omega
  · show win0_5.index t (3 : Fin 4) * 1024 + 1 * k.val = k.val; omega

/-- Point t writes back block t of the attention output. -/
theorem out_flushed (c : Dev nD) (t : Fin cfg0.N) :
    (dats m 0 c).flushed 4 t = ((cfg0.win 4).blk t).view.read (Elt Ideal) (outOf m c) := by
  rw [Value.flushed4_A, out_block]
  obtain ⟨-, -, -, -, ⟨e0, e1, e2, e3⟩, -, eh⟩ := idx_facts t
  funext j
  obtain ⟨u, v, r, d, rfl⟩ : ∃ (u v : Fin 1) (r : Fin 256) (d : Fin 64), j = ix4 u v r d := ⟨j 0, j 1, j 2, j 3, eq_ix4 j⟩
  show k0_pay1 (F := Ideal) (k0_pay2 (headRows (grid0.coords t) (iblk m c 2 t)))
      (k0_pay3 (iblk m c 0 t) (headRows (grid0.coords t) (iblk m c 1 t)) (iblk m c 3 t)) (ix4 u v r d)
    = outOf m c (((cfg0.win 4).blk t).view.emb (ix4 u v r d))
  refine (out_point (V m c main_arg0) (V m c main_arg1) (V m c main_arg2) (V m c main_arg3) (iblk m c 0 t) (iblk m c 1 t)
    (iblk m c 2 t) (iblk m c 3 t) (grid0.coords t) (pb t) (ph t) (pq t) eh (qblock m c t) (kblock m c t) (vblock m c t)
    (mblock m c t) u v r d).trans ?_
  refine (outArr_at scaledDot (V m c main_arg0) (V m c main_arg1) (V m c main_arg2) (V m c main_arg3) _ (pb t) (ph t)
    (qrow (pq t) r) d ?_ ?_ ?_ ?_).symm
  · show win0_4.index t (0 : Fin 4) * 1 + 1 * u.val = t.val / 64 % 4; omega
  · show win0_4.index t (1 : Fin 4) * 1 + 1 * v.val = t.val % 16; omega
  · show win0_4.index t (2 : Fin 4) * 256 + 1 * r.val = t.val / 16 % 4 * 256 + r.val; omega
  · show win0_4.index t (3 : Fin 4) * 64 + 1 * d.val = d.val; omega

/-! ## The blocks cover the arrays -/

theorem attn_mem_blk (t : Fin cfg0.N) (i : S4x16x1024x1024.Idx) :
    i ∈ ((cfg0.win 5).blk t).view.set ↔ ∀ a : Fin 4, win0_5.index t a * S1x1x256x1024.size a ≤ (i a).val
      ∧ (i a).val < win0_5.index t a * S1x1x256x1024.size a + S1x1x256x1024.size a := by
  show i ∈ ((View.whole main_v0_1).slice (win0_5.rect t)).set ↔ _
  rw [View.set_slice_whole, Rect.mem_set_unit]
  exact Iff.rfl

theorem out_mem_blk (t : Fin cfg0.N) (i : S4x16x1024x64.Idx) :
    i ∈ ((cfg0.win 4).blk t).view.set ↔ ∀ a : Fin 4, win0_4.index t a * S1x1x256x64.size a ≤ (i a).val
      ∧ (i a).val < win0_4.index t a * S1x1x256x64.size a + S1x1x256x64.size a := by
  show i ∈ ((View.whole main_v0_0).slice (win0_4.rect t)).set ↔ _
  rw [View.set_slice_whole, Rect.mem_set_unit]
  exact Iff.rfl

/-- The point of batch b, tile q / 256 and head h covers the attention entry (b, h, q, k). -/
theorem attn_cover (i : S4x16x1024x1024.Idx) : ∃ t : Fin cfg0.N, (cfg0.win 5).flush t = true ∧ i ∈ ((cfg0.win 5).blk t).view.set := by
  have hN : cfg0.N = 256 := N_0
  have i0 : (i 0).val < 4 := (i 0).isLt
  have i1 : (i 1).val < 16 := (i 1).isLt
  have i2 : (i 2).val < 1024 := (i 2).isLt
  have i3 : (i 3).val < 1024 := (i 3).isLt
  refine ⟨⟨(i 0).val * 64 + (i 2).val / 256 * 16 + (i 1).val, by omega⟩, flush0_5 _, ?_⟩
  rw [attn_mem_blk]
  obtain ⟨-, -, -, -, -, ⟨e0, e1, e2, e3⟩, -⟩ := idx_facts ⟨(i 0).val * 64 + (i 2).val / 256 * 16 + (i 1).val, by omega⟩
  intro a
  match a with
  | ⟨0, _⟩ => show win0_5.index _ (0 : Fin 4) * 1 ≤ (i 0).val ∧ (i 0).val < win0_5.index _ (0 : Fin 4) * 1 + 1; rw [e0]; dsimp only; omega
  | ⟨1, _⟩ => show win0_5.index _ (1 : Fin 4) * 1 ≤ (i 1).val ∧ (i 1).val < win0_5.index _ (1 : Fin 4) * 1 + 1; rw [e1]; dsimp only; omega
  | ⟨2, _⟩ => show win0_5.index _ (2 : Fin 4) * 256 ≤ (i 2).val ∧ (i 2).val < win0_5.index _ (2 : Fin 4) * 256 + 256; rw [e2]; dsimp only; omega
  | ⟨3, _⟩ => show win0_5.index _ (3 : Fin 4) * 1024 ≤ (i 3).val ∧ (i 3).val < win0_5.index _ (3 : Fin 4) * 1024 + 1024; rw [e3]; omega

/-- The same point covers the output entry (b, h, q, d). -/
theorem out_cover (i : S4x16x1024x64.Idx) : ∃ t : Fin cfg0.N, (cfg0.win 4).flush t = true ∧ i ∈ ((cfg0.win 4).blk t).view.set := by
  have hN : cfg0.N = 256 := N_0
  have i0 : (i 0).val < 4 := (i 0).isLt
  have i1 : (i 1).val < 16 := (i 1).isLt
  have i2 : (i 2).val < 1024 := (i 2).isLt
  have i3 : (i 3).val < 64 := (i 3).isLt
  refine ⟨⟨(i 0).val * 64 + (i 2).val / 256 * 16 + (i 1).val, by omega⟩, flush0_4 _, ?_⟩
  rw [out_mem_blk]
  obtain ⟨-, -, -, -, ⟨e0, e1, e2, e3⟩, -⟩ := idx_facts ⟨(i 0).val * 64 + (i 2).val / 256 * 16 + (i 1).val, by omega⟩
  intro a
  match a with
  | ⟨0, _⟩ => show win0_4.index _ (0 : Fin 4) * 1 ≤ (i 0).val ∧ (i 0).val < win0_4.index _ (0 : Fin 4) * 1 + 1; rw [e0]; dsimp only; omega
  | ⟨1, _⟩ => show win0_4.index _ (1 : Fin 4) * 1 ≤ (i 1).val ∧ (i 1).val < win0_4.index _ (1 : Fin 4) * 1 + 1; rw [e1]; dsimp only; omega
  | ⟨2, _⟩ => show win0_4.index _ (2 : Fin 4) * 256 ≤ (i 2).val ∧ (i 2).val < win0_4.index _ (2 : Fin 4) * 256 + 256; rw [e2]; dsimp only; omega
  | ⟨3, _⟩ => show win0_4.index _ (3 : Fin 4) * 64 ≤ (i 3).val ∧ (i 3).val < win0_4.index _ (3 : Fin 4) * 64 + 64; rw [e3]; omega

/-! ## The result arrays after the run -/

theorem attn_final (c : Dev nD) : (dats m 0 c).arrAt 5 cfg0.N = attnOf m c :=
  (dats m 0 c).arrAt_eq_of_cover 5 (attnOf m c) (fun t _ => attn_flushed m c t) attn_cover

theorem out_final (c : Dev nD) : (dats m 0 c).arrAt 4 cfg0.N = outOf m c :=
  (dats m 0 c).arrAt_eq_of_cover 4 (outOf m c) (fun t _ => out_flushed m c t) out_cover

/-- The run, read: the first result array is the attention output and the second the attention matrix of the
    argument arrays, which end unchanged. -/
theorem run : θ_run defs (onTc (τ := τ) (main (F := Ideal))) ⟨m, fun _ => 0, ρ⟩ fun r => ∀ c : Dev nD,
      r.2.mem ((c : Thread nD τ).loc main_v0_0) = outOf m c
      ∧ r.2.mem ((c : Thread nD τ).loc main_v0_1) = attnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (out_final m c), (h c).2.1.trans (attn_final m c), (h c).2.2⟩)
    (Value.run_blocks m ρ)

end Cert.KernelIdeal.AttnValue

end
-- ==== Proof.RefAttn.lean ====
/-
  The reference program's attention weights and output, read index by index, are the masked
  scaled-dot-product attention of AttnSpec taken with the score "dot product divided by √64".

  For a batch b, a head h and a query row q the program forms the masked score row
      w k = (mask b 0 q k = 0 ? fill : (Σ d, Q b h q d · K b h k d) / √64),
  takes its maximum over k (a fold of max from -∞, then once more the maximum with -∞, which changes
  nothing), subtracts it, exponentiates, sums over k from 0, divides, and contracts the quotient with V
  over k.  Each step below reads one of these stages at an index with literal coordinates; the two
  theorems at the end put them together.
-/
import proofs.«117605_j17154099380895_2_alg».proof.Proof.Gen.ReferenceIdeal.Read
import proofs.«117605_j17154099380895_2_alg».proof.Proof.AttnSpec
import Idealize.ShloMosaic.PureOps.Ideal.Laws
import Idealize.ShloMosaic.Lib.ValueIdx

noncomputable section

namespace Cert.RefAttn

open Cert.ReferenceIdeal Cert.ReferenceIdeal.Gen Cert.ReferenceIdeal.Read Cert.AttnSpec
open Idealize.ShloMosaic Idealize.ShloMosaic.ValueIdx

/-- The contents of a query, key or value array: an extended real at each index (b, h, row, d). -/
abbrev QArr := (⟨S4x16x1024x64, .f32⟩ : BufTy).Contents (Elt Ideal)
/-- The contents of the mask array: a 32-bit word at each index (b, 0, q, k). -/
abbrev MaskArr := (⟨S4x1x1024x1024, .i32⟩ : BufTy).Contents (Elt Ideal)

/-! ## The index maps at literal coordinates -/

/-- In the score (b, h, q, k) the d-th factor on the query side sits at (b, h, q, d) … -/
theorem scoreLeft_ix4 (b : Fin 4) (h : Fin 16) (q k : Fin 1024) (d : Fin 64) :
    lidx_main_v0 (ix4 b h q k) d = ix4 b h q d :=
  funext fun a => Fin.ext (by match a with | ⟨0, _⟩ => rfl | ⟨1, _⟩ => rfl | ⟨2, _⟩ => rfl | ⟨3, _⟩ => rfl)

/-- … and on the key side at (b, h, k, d). -/
theorem scoreRight_ix4 (b : Fin 4) (h : Fin 16) (q k : Fin 1024) (d : Fin 64) :
    ridx_main_v0 (ix4 b h q k) d = ix4 b h k d :=
  funext fun a => Fin.ext (by match a with | ⟨0, _⟩ => rfl | ⟨1, _⟩ => rfl | ⟨2, _⟩ => rfl | ⟨3, _⟩ => rfl)

/-- The mask is shared by the heads: position (b, h, q, k) reads the mask at (b, 0, q, k). -/
theorem maskIdx_ix4 (b : Fin 4) (h : Fin 16) (q k : Fin 1024) :
    idx_main_call0_v1 (ix4 b h q k) = ix4 b (0 : Fin 1) q k :=
  funext fun a => Fin.ext (by match a with | ⟨0, _⟩ => rfl | ⟨1, _⟩ => rfl | ⟨2, _⟩ => rfl | ⟨3, _⟩ => rfl)

/-- A row statistic kept with a unit last axis is read by (b, h, q, k) at (b, h, q, 0): the maximum … -/
theorem maxKeep_ix4 (b : Fin 4) (h : Fin 16) (q k : Fin 1024) : idx_main_v11 (ix4 b h q k) = ix4 b h q (0 : Fin 1) :=
  funext fun a => Fin.ext (by match a with | ⟨0, _⟩ => rfl | ⟨1, _⟩ => rfl | ⟨2, _⟩ => rfl | ⟨3, _⟩ => rfl)

/-- … which, without the unit axis, sits at (b, h, q). -/
theorem maxDrop_ix4 (b : Fin 4) (h : Fin 16) (q : Fin 1024) (z : Fin 1) : idx_main_v10 (ix4 b h q z) = ix3 b h q :=
  funext fun a => Fin.ext (by match a with | ⟨0, _⟩ => rfl | ⟨1, _⟩ => rfl | ⟨2, _⟩ => rfl)

/-- The same two reads for the row sum. -/
theorem sumKeep_ix4 (b : Fin 4) (h : Fin 16) (q k : Fin 1024) : idx_main_v16 (ix4 b h q k) = ix4 b h q (0 : Fin 1) :=
  funext fun a => Fin.ext (by match a with | ⟨0, _⟩ => rfl | ⟨1, _⟩ => rfl | ⟨2, _⟩ => rfl | ⟨3, _⟩ => rfl)

theorem sumDrop_ix4 (b : Fin 4) (h : Fin 16) (q : Fin 1024) (z : Fin 1) : idx_main_v15 (ix4 b h q z) = ix3 b h q :=
  funext fun a => Fin.ext (by match a with | ⟨0, _⟩ => rfl | ⟨1, _⟩ => rfl | ⟨2, _⟩ => rfl)

/-- The k-th term of the row sum at (b, h, q) sits at (b, h, q, k). -/
theorem sumTerm_ix3 (b : Fin 4) (h : Fin 16) (q k : Fin 1024) : idx_main_v14 (ix3 b h q) k = ix4 b h q k :=
  funext fun a => Fin.ext (by match a with | ⟨0, _⟩ => rfl | ⟨1, _⟩ => rfl | ⟨2, _⟩ => rfl | ⟨3, _⟩ => rfl)

/-- In the output (b, h, q, d) the k-th factor on the weight side sits at (b, h, q, k) … -/
theorem outLeft_ix4 (b : Fin 4) (h : Fin 16) (q : Fin 1024) (d : Fin 64) (k : Fin 1024) :
    lidx_main_v18 (ix4 b h q d) k = ix4 b h q k :=
  funext fun a => Fin.ext (by match a with | ⟨0, _⟩ => rfl | ⟨1, _⟩ => rfl | ⟨2, _⟩ => rfl | ⟨3, _⟩ => rfl)

/-- … and on the value side at (b, h, k, d). -/
theorem outRight_ix4 (b : Fin 4) (h : Fin 16) (q : Fin 1024) (d : Fin 64) (k : Fin 1024) :
    ridx_main_v18 (ix4 b h q d) k = ix4 b h k d :=
  funext fun a => Fin.ext (by match a with | ⟨0, _⟩ => rfl | ⟨1, _⟩ => rfl | ⟨2, _⟩ => rfl | ⟨3, _⟩ => rfl)

/-- Reducing over the key axis: the index over (b, h, q) with key coordinate k is (b, h, q, k). -/
theorem liftKey_ix3 (hR : S4x16x1024x1024.Reduces [3] S4x16x1024) (b : Fin 4) (h : Fin 16) (q k : Fin 1024) :
    hR.lift (ix3 b h q) k = ix4 b h q k :=
  funext fun a => Fin.ext (by match a with | ⟨0, _⟩ => rfl | ⟨1, _⟩ => rfl | ⟨2, _⟩ => rfl | ⟨3, _⟩ => rfl)

/-! ## The stages at an index -/

/-- The masked score at (b, h, q, k): where the mask word is zero the fill value, elsewhere the dot product of
    query row q with key row k divided by √64. -/
theorem maskedScore_at (x0 x1 : QArr) (x3 : MaskArr) (b : Fin 4) (h : Fin 16) (q k : Fin 1024) :
    val_main_v6 (F := Ideal) x0 x1 x3 (ix4 b h q k)
      = maskRow (fun k' => x3 (ix4 b (0 : Fin 1) q k'))
          (fun k' => dotOverRoot (fun d => x0 (ix4 b h q d)) (fun d => x1 (ix4 b h k' d))) k := by
  rw [val_main_v6_apply, val_main_call0_v1_apply, val_main_v5_apply, val_main_v4_apply, val_main_c_apply,
    val_main_call0_v2_apply, val_main_call0_v0_apply, val_main_cst_0_apply, val_main_v3_apply, val_main_v0_apply,
    val_main_v2_apply, val_main_v1_apply, val_main_cst_apply]
  unfold maskRow dotOverRoot
  simp only [maskIdx_ix4, scoreLeft_ix4, scoreRight_ix4, Ideal.hostDivf_def, Ideal.hostUnary_sqrt_def, Ideal.ofBits_def]

/-- The reduction by maximum over the key axis, at (b, h, q), is the row maximum of the masked scores: max commutes
    and associates, so the reduction is the fold of max from -∞ over the key coordinates. -/
theorem rowMax_at (x0 x1 : QArr) (x3 : MaskArr) (b : Fin 4) (h : Fin 16) (q : Fin 1024) :
    val_main_v7 (F := Ideal) x0 x1 x3 (ix3 b h q)
      = rowMax (fun k => val_main_v6 (F := Ideal) x0 x1 x3 (ix4 b h q k)) := by
  unfold val_main_v7
  generalize val_main_v6 (F := Ideal) x0 x1 x3 = y
  have hR : S4x16x1024x1024.Reduces [3] S4x16x1024 := by decide
  have key := Host.reduce_eq_fold_single (α := Ideal .f32) (s := S4x16x1024x1024) (t := S4x16x1024) (a := 3) (u := S_)
    (FloatOps.maximumf (F := Ideal) (φ := .f32)) y (val_main_cst_1 (F := Ideal)) reducesTo_S4x16x1024x1024_S4x16x1024_d3 hR h_S_ (ix3 b h q)
  have e : (y ∘ hR.lift (ix3 b h q)) = fun k : Fin 1024 => y (ix4 b h q k) :=
    funext fun k => congrArg y (liftKey_ix3 hR b h q k)
  rw [key, e]
  rfl

/-- The row maximum broadcast back along the key axis; the extra maximum with -∞ is absorbed. -/
theorem rowMaxBroadcast_at (x0 x1 : QArr) (x3 : MaskArr) (b : Fin 4) (h : Fin 16) (q k : Fin 1024) :
    val_main_v11 (F := Ideal) x0 x1 x3 (ix4 b h q k)
      = rowMax (fun k' => val_main_v6 (F := Ideal) x0 x1 x3 (ix4 b h q k')) := by
  rw [val_main_v11_apply, maxKeep_ix4, val_main_v10_apply, maxDrop_ix4, val_main_v9_apply, val_main_v8_apply,
    val_main_cst_2_apply, rowMax_at]
  exact max_start_rowMax _

/-- The exponential of the masked score less its row maximum. -/
theorem expShifted_at (x0 x1 : QArr) (x3 : MaskArr) (b : Fin 4) (h : Fin 16) (q k : Fin 1024) :
    val_main_v13 (F := Ideal) x0 x1 x3 (ix4 b h q k)
      = Ideal.exp (val_main_v6 (F := Ideal) x0 x1 x3 (ix4 b h q k)
          - rowMax (fun k' => val_main_v6 (F := Ideal) x0 x1 x3 (ix4 b h q k'))) := by
  rw [val_main_v13_apply, val_main_v12_apply, rowMaxBroadcast_at]
  rfl

/-- The row sum of those exponentials (summed from 0), broadcast back along the key axis. -/
theorem expSum_at (x0 x1 : QArr) (x3 : MaskArr) (b : Fin 4) (h : Fin 16) (q k : Fin 1024) :
    val_main_v16 (F := Ideal) x0 x1 x3 (ix4 b h q k)
      = ∑ k'' : Fin 1024, Ideal.exp (val_main_v6 (F := Ideal) x0 x1 x3 (ix4 b h q k'')
          - rowMax (fun k' => val_main_v6 (F := Ideal) x0 x1 x3 (ix4 b h q k'))) := by
  rw [val_main_v16_apply, sumKeep_ix4, val_main_v15_apply, sumDrop_ix4, val_main_v14_apply, val_main_cst_3_apply]
  simp only [sumTerm_ix3, expShifted_at, Ideal.ofBits_def, Ideal.ofBits_zero_f32, zero_add]

/-- The quotient at (b, h, q, k) is the softmax of the masked score row at k. -/
theorem attn_at (x0 x1 : QArr) (x3 : MaskArr) (b : Fin 4) (h : Fin 16) (q k : Fin 1024) :
    val_main_v17 (F := Ideal) x0 x1 x3 (ix4 b h q k)
      = softRow (fun k' => val_main_v6 (F := Ideal) x0 x1 x3 (ix4 b h q k')) k := by
  rw [val_main_v17_apply, expShifted_at, expSum_at]
  rfl

/-! ## The two results -/

/-- The attention weights the reference computes are the specification's, with the score "dot product over √64". -/
theorem attn_eq (x0 x1 : (⟨S4x16x1024x64, .f32⟩ : BufTy).Contents (Elt Ideal)) (x3 : (⟨S4x1x1024x1024, .i32⟩ : BufTy).Contents (Elt Ideal)) :
    Cert.ReferenceIdeal.Read.val_main_v17 (F := Ideal) x0 x1 x3 = Cert.AttnSpec.attnArr Cert.AttnSpec.dotOverRoot x0 x1 x3 := by
  funext i
  obtain ⟨b, h, q, k, rfl⟩ : ∃ (b : Fin 4) (h : Fin 16) (q : Fin 1024) (k : Fin 1024), i = ix4 b h q k :=
    ⟨i 0, i 1, i 2, i 3, eq_ix4 i⟩
  rw [attn_at]
  show _ = attnAt dotOverRoot x0 x1 x3 b h q k
  unfold attnAt
  refine congrArg (fun w => softRow w k) ?_
  funext k'
  exact maskedScore_at x0 x1 x3 b h q k'

/-- The output the reference computes is the specification's: the weights of row (b, h, q) against column d of V. -/
theorem out_eq (x0 x1 x2 : (⟨S4x16x1024x64, .f32⟩ : BufTy).Contents (Elt Ideal)) (x3 : (⟨S4x1x1024x1024, .i32⟩ : BufTy).Contents (Elt Ideal)) :
    Cert.ReferenceIdeal.Read.val_main_v18 (F := Ideal) x0 x1 x2 x3 = Cert.AttnSpec.outArr Cert.AttnSpec.dotOverRoot x0 x1 x2 x3 := by
  funext i
  obtain ⟨b, h, q, d, rfl⟩ : ∃ (b : Fin 4) (h : Fin 16) (q : Fin 1024) (d : Fin 64), i = ix4 b h q d :=
    ⟨i 0, i 1, i 2, i 3, eq_ix4 i⟩
  rw [val_main_v18_apply]
  show _ = outAt dotOverRoot x0 x1 x2 x3 b h q d
  unfold outAt
  refine Finset.sum_congr rfl fun k _ => ?_
  rw [outLeft_ix4, outRight_ix4, attn_eq]
  rfl

end Cert.RefAttn

end
-- ==== Proof.AttnFinite.lean ====
/-
  From "every float input is finite" to "every entry is a real number".

  The precondition is, for each of the three float arrays x,  all (|x| < +inf):  the absolute value  max x (-x)
  of every entry compared (strictly less) with the word 0x7F800000, which denotes the top element, the 1-bit
  results folded by "and" over all four axes from the word 1, and the three folds joined by "and".  If the
  whole is 1 then each fold is 1, so each comparison is 1, so  max x (-x) < ⊤  at every entry.  An extended
  real is ⊥, ⊤ or a real; at ⊥ the negation is ⊤ and at ⊤ the entry itself is ⊤, so the maximum is ⊤ in both
  cases, which is not below ⊤: the entry is a real.
-/
import proofs.«117605_j17154099380895_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.AttnFinite

open Idealize.ShloMosaic Idealize.ShloMosaic.ValueIdx

/-- The word 0x7F800000 (sign 0, exponent all ones, fraction 0) denotes the top element. -/
theorem ofBits_posInf : Ideal.ofBits .f32 0x7F800000#32 = (⊤ : EReal) := by
  simp [Ideal.ofBits, Ideal.ieee]

/-- A Boolean's one-bit word is 1 exactly when the Boolean is true. -/
theorem ofBool_eq_one {b : Bool} : BitVec.ofBool b = 1#1 ↔ b = true := by cases b <;> decide

/-- An extended real whose absolute value  max x (-x)  is strictly below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The rank-0 shape has one index. -/
instance : Subsingleton Cert.Pre_finite_inputs.S_.Idx := ⟨fun a b => funext fun d => d.elim0⟩

/-- The comparison  |x i| < +inf  being the word 1 says that  x i  is a real number. -/
theorem real_of_cmp [Cert.Pre_finite_inputs.Facts]
    (x : FVec Ideal Cert.Pre_finite_inputs.S4x16x1024x64 .f32) (i : Cert.Pre_finite_inputs.S4x16x1024x64.Idx)
    (h : cmpf .olt (Host.absf x)
        (broadcastInDim Cert.Pre_finite_inputs.S4x16x1024x64 ![] Cert.Pre_finite_inputs.Facts.bcast_S_S4x16x1024x64
          (constant (F := Ideal) Cert.Pre_finite_inputs.S_ .f32 0x7F800000#32)) i = 1#1) :
    ∃ r : ℝ, x i = (r : EReal) := by
  apply real_of_abs_lt_top
  have h' : BitVec.ofBool (decide (max (x i) (-(x i)) < Ideal.ofBits .f32 0x7F800000#32)) = 1#1 := h
  rw [ofBits_posInf] at h'
  exact of_decide_eq_true (ofBool_eq_one.1 h')

theorem of_pre [Cert.Pre_finite_inputs.Facts]
    (x0 x1 x2 : FVec Ideal Cert.Pre_finite_inputs.S4x16x1024x64 .f32) (x3 : IVec Cert.Pre_finite_inputs.S4x1x1024x1024 32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  unfold Cert.Pre_finite_inputs.fn at h0
  dsimp only at h0
  obtain ⟨h01, h2⟩ := IntOp.andi_eq_one.1 h0
  obtain ⟨h0', h1⟩ := IntOp.andi_eq_one.1 h01
  exact ⟨fun i => real_of_cmp x0 i (Host.reduce_andi_all _ _ _ _ _ h0' i),
    fun i => real_of_cmp x1 i (Host.reduce_andi_all _ _ _ _ _ h1 i),
    fun i => real_of_cmp x2 i (Host.reduce_andi_all _ _ _ _ _ h2 i)⟩

end Cert.AttnFinite

end
-- ==== Proof.lean ====
/-
  Masked scaled-dot-product attention: the tiled kernel against the whole-array reference, at the exact values.

  Both programs compute, for every batch b, head h and query row q, the softmax over the keys k of the masked
  scores (a fixed finite fill value where the mask word is zero) and the softmax-weighted sum of the value rows; they
  return that sum and the softmax matrix itself.  The kernel walks a 4 × 4 × 16 grid of (batch, query tile, head),
  scales its 256 query rows by 1/8 BEFORE the dot products with the 1024 key rows of its head, and writes one
  256-row block of each result per point; the reference divides the dot products by √64 AFTERWARDS.  On finite
  queries and keys the two scores are one number (√64 = 8; a real factor moves across a finite sum of reals), which
  is the only place the precondition is used; everything after the scores is the same chain of operations on both
  sides (the reference's extra maximum with the bottom element and its sum started from zero change nothing).

  The steps: the specification and the law joining the two scores (AttnSpec); the reference read index by index
  (RefAttn); what one grid point leaves in its two blocks (KernelPieces), that block entry by entry (KernelPayload,
  over the column-keeping layout reads of LibKeepdims), the block as rows of the whole arrays (KernelPoint), the
  blocks tiling the result arrays (KernelArrays); finiteness of every entry from the precondition (AttnFinite).
  The kernel's idealization rewrote nothing, so that conjunct is trivial; the three frames are the generated runs.
-/
import proofs.«117605_j17154099380895_2_alg».proof.Defs
import proofs.«117605_j17154099380895_2_alg».proof.Proof.Gen.Kernel
import proofs.«117605_j17154099380895_2_alg».proof.Proof.Gen.Kernel.Skeleton
import proofs.«117605_j17154099380895_2_alg».proof.Proof.Gen.Kernel.Launch
import proofs.«117605_j17154099380895_2_alg».proof.Proof.Gen.Kernel.Points
import proofs.«117605_j17154099380895_2_alg».proof.Proof.Gen.Kernel.Frame
import proofs.«117605_j17154099380895_2_alg».proof.Proof.Gen.KernelIdeal
import proofs.«117605_j17154099380895_2_alg».proof.Proof.Gen.KernelIdeal.Skeleton
import proofs.«117605_j17154099380895_2_alg».proof.Proof.Gen.KernelIdeal.Launch
import proofs.«117605_j17154099380895_2_alg».proof.Proof.Gen.KernelIdeal.Points
import proofs.«117605_j17154099380895_2_alg».proof.Proof.Gen.KernelIdeal.Frame
import proofs.«117605_j17154099380895_2_alg».proof.Proof.Gen.ReferenceIdeal
import proofs.«117605_j17154099380895_2_alg».proof.Proof.Gen.Pre_finite_inputs
import proofs.«117605_j17154099380895_2_alg».proof.Proof.Gen.KernelIdeal.Value
import proofs.«117605_j17154099380895_2_alg».proof.Proof.Gen.ReferenceIdeal.Run
import proofs.«117605_j17154099380895_2_alg».proof.Proof.Gen.ReferenceIdeal.Read
import proofs.«117605_j17154099380895_2_alg».proof.Proof.KernelArrays
import proofs.«117605_j17154099380895_2_alg».proof.Proof.RefAttn
import proofs.«117605_j17154099380895_2_alg».proof.Proof.AttnFinite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- The reference runs and leaves its arguments unchanged: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on finite arguments the kernel ends with the attention output and the attention matrix
    of the arguments under the pre-scaled score, the reference with the same two under the score divided by √64;
    on finite queries and keys these are equal. -/
theorem algebraic : Cert.algebraic_KernelIdeal_ReferenceIdeal := by
  intro m ρ m' ρ' hpre hagree
  refine ⟨fun c => Cert.KernelIdeal.AttnValue.outOf m c, fun c => Cert.KernelIdeal.AttnValue.attnOf m c,
    Cert.KernelIdeal.AttnValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨hQ, hK, -⟩ := Cert.AttnFinite.of_pre _ _ _ _ (hpre c)
    refine (Cert.ReferenceIdeal.Read.val_main_v18_eq _ _ _ _).trans ?_
    rw [Cert.RefAttn.out_eq, (hagree c).1, (hagree c).2.1, (hagree c).2.2.1, (hagree c).2.2.2]
    exact (Cert.AttnSpec.outArr_scaled_eq _ _ _ _ hQ hK).symm
  · obtain ⟨hQ, hK, -⟩ := Cert.AttnFinite.of_pre _ _ _ _ (hpre c)
    refine (Cert.ReferenceIdeal.Read.val_main_v17_eq _ _ _).trans ?_
    rw [Cert.RefAttn.attn_eq, (hagree c).1, (hagree c).2.1, (hagree c).2.2.2]
    exact (Cert.AttnSpec.attnArr_scaled_eq _ _ _ hQ hK).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
